-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 56
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S_, .i32⟩
  | .hbm, ⟨15, _⟩ => ⟨S100000, .i32⟩
  | .hbm, ⟨16, _⟩ => ⟨S1600000x1, .i32⟩
  | .hbm, ⟨17, _⟩ => ⟨S100000, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_cst : Ref sig .tc := ⟨.hbm, 19, rfl⟩
abbrev main_call0_v9 : Ref sig .tc := ⟨.hbm, 20, rfl⟩
abbrev main_call0_v10 : Ref sig .tc := ⟨.hbm, 21, rfl⟩
abbrev main_call0_cst_1 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_c_2 : Ref sig .tc := ⟨.hbm, 26, rfl⟩
abbrev main_call0_v14 : Ref sig .tc := ⟨.hbm, 27, rfl⟩
abbrev main_call0_v15 : Ref sig .tc := ⟨.hbm, 28, rfl⟩
abbrev main_call0_c_3 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_cst_4 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_c_5 : Ref sig .tc := ⟨.hbm, 41, rfl⟩
abbrev main_call0_v26 : Ref sig .tc := ⟨.hbm, 42, rfl⟩
abbrev main_call0_v27 : Ref sig .tc := ⟨.hbm, 43, rfl⟩
abbrev main_call0_c_6 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_cst_7 : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_v0 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_call0_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result named.

  The program is four stretches: host operations, the first layer's tiled kernel, host operations, the second
  layer's tiled kernel. The buffer contents at the four boundaries are the fold `W1 … W4` of the generated frame
  module; every weakly fair execution ends with each unscoped buffer at `W4`. Read at the result's buffer this
  names the program's value; read at the arguments' buffers it gives the frame again.
-/
import proofs.«156475_j10282151706738_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result's buffer ends at the last
    boundary's contents `W4` and the arguments end as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result's buffer at the last boundary is what the second kernel's write-backs leave of its output array. -/
theorem W4_result (c : Dev nD) : W4 m ρ c (Proc.devRef .tc main_v0) = (dat1 (V3 m ρ) c).arrAt 6 cfg1.N :=
  W4_arr m ρ c 6

end Cert.KernelIdeal.RunValue

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.SageLaw.lean ====
/-
  The one algebraic step between the two programs' layers.

  For one node row and one output column a layer adds three things: the row's neighbour mean times a weight
  row, the row's own features times a second weight row, and a bias. One program forms the mean by scaling the
  neighbour sum with a reciprocal count `1 / c` computed beforehand, and adds the two products before the bias;
  the other divides the neighbour sum by the count `c` and adds the bias before the second product. On the
  extended reals `a · (1 / c) = a / c` as soon as `c ≠ 0` — both are `a · c⁻¹` — and addition is commutative
  and associative with no side condition, so the two entries are equal whenever the count is not zero; nothing
  needs the summands to be finite.
-/
import Idealize.ShloMosaic.PureOps.Ideal
import Idealize.ShloMosaic.Lib.ValueIdx
import Mathlib

noncomputable section

namespace SageLaw

open Idealize.ShloMosaic Idealize.ShloMosaic.ValueIdx

/-- The entry with the reciprocal count `v` given: `(Σ_k (a_k · v) · wl_k + Σ_k x_k · wr_k) + b`. -/
def tileEntry (a x wl wr : Fin 128 → EReal) (v b : EReal) : EReal :=
  ((∑ k : Fin 128, (a k * v) * wl k) + ∑ k : Fin 128, x k * wr k) + b

/-- The entry with the count `c` given: `(Σ_k (a_k / c) · wl_k + b) + Σ_k x_k · wr_k`. -/
def meanEntry (a x wl wr : Fin 128 → EReal) (c b : EReal) : EReal :=
  ((∑ k : Fin 128, Ideal.div (a k) c * wl k) + b) + ∑ k : Fin 128, x k * wr k

/-- Scaling by the reciprocal of a nonzero extended real is dividing by it. -/
theorem mul_div_one (a c : EReal) (hc : c ≠ 0) : a * Ideal.div 1 c = Ideal.div a c := by
  unfold Ideal.div
  rw [if_neg hc, if_neg hc, one_mul]

/-- THE LAW: with the reciprocal of a nonzero count in the scaling slot, the first arrangement is the second. -/
theorem tileEntry_eq_meanEntry (a x wl wr : Fin 128 → EReal) (c b : EReal) (hc : c ≠ 0) :
    tileEntry a x wl wr (Ideal.div 1 c) b = meanEntry a x wl wr c b := by
  unfold tileEntry meanEntry
  simp only [mul_div_one _ _ hc]
  rw [add_right_comm]

/-- A count clamped below by one is not zero. -/
theorem max_one_ne_zero (n : EReal) : max n 1 ≠ 0 :=
  (lt_of_lt_of_le zero_lt_one (le_max_right n 1)).ne'

/-! ## A whole layer, entry by entry

  The graph has 100000 nodes with 128 features each; a layer's output has one row per node and one column per
  output feature. -/

/-- A real matrix of the given extents, as a function of its index. -/
abbrev Mat (n m : ℕ) : Type := (⟨2, ![n, m]⟩ : Shape).Idx → EReal
/-- A real vector of the given extent. -/
abbrev Vect (n : ℕ) : Type := (⟨1, ![n]⟩ : Shape).Idx → EReal

/-- Entry `(r, q)` of a layer in the first arrangement: from the neighbour sums `a`, the reciprocal counts as a
    column `v`, the node features `x`, the weights `wl`, `wr` and the bias as a row `b`. -/
def layerRows (a : Mat 100000 128) (v : Mat 100000 1) (x : Mat 100000 128) (wl wr : Mat 128 128) (b : Mat 1 128)
    (r : Fin 100000) (q : Fin 128) : EReal :=
  tileEntry (fun k => a (ix2 r k)) (fun k => x (ix2 r k)) (fun k => wl (ix2 q k)) (fun k => wr (ix2 q k))
    (v (ix2 r (0 : Fin 1))) (b (ix2 (0 : Fin 1) q))

/-- Entry `(r, q)` of a layer in the second arrangement: from the neighbour sums, the counts as a vector `c`, the
    node features, the weights and the bias as a vector. -/
def layerMean (a : Mat 100000 128) (c : Vect 100000) (x : Mat 100000 128) (wl wr : Mat 128 128) (b : Vect 128)
    (r : Fin 100000) (q : Fin 128) : EReal :=
  meanEntry (fun k => a (ix2 r k)) (fun k => x (ix2 r k)) (fun k => wl (ix2 q k)) (fun k => wr (ix2 q k))
    (c (ix1 r)) (b (ix1 q))

/-- The first layer's output array in the first arrangement: clamped below by the zero word. -/
def layer1Array (a : Mat 100000 128) (v : Mat 100000 1) (x : Mat 100000 128) (wl wr : Mat 128 128) (b : Mat 1 128) :
    Mat 100000 128 :=
  fun i => max (layerRows a v x wl wr b ⟨(i 0).val, idx2_lt0 i⟩ ⟨(i 1).val, idx2_lt1 i⟩) (Ideal.ofBits .f32 0x00000000#32)

/-- The second layer's output array in the first arrangement: not clamped. -/
def layer2Array (a : Mat 100000 128) (v : Mat 100000 1) (x : Mat 100000 128) (wl wr : Mat 128 128) (b : Mat 1 128) :
    Mat 100000 128 :=
  fun i => layerRows a v x wl wr b ⟨(i 0).val, idx2_lt0 i⟩ ⟨(i 1).val, idx2_lt1 i⟩

/-- The two arrangements of a layer agree at every entry when the column `v` holds the reciprocals of the
    nonzero counts `c` and the bias row holds the bias vector. -/
theorem layerRows_eq_layerMean (a : Mat 100000 128) (v : Mat 100000 1) (c : Vect 100000) (x : Mat 100000 128)
    (wl wr : Mat 128 128) (b2 : Mat 1 128) (b : Vect 128)
    (hv : ∀ r : Fin 100000, v (ix2 r (0 : Fin 1)) = Ideal.div 1 (c (ix1 r))) (hc : ∀ r : Fin 100000, c (ix1 r) ≠ 0)
    (hb : ∀ q : Fin 128, b2 (ix2 (0 : Fin 1) q) = b (ix1 q)) (r : Fin 100000) (q : Fin 128) :
    layerRows a v x wl wr b2 r q = layerMean a c x wl wr b r q := by
  unfold layerRows layerMean
  rw [hv r, hb q]
  exact tileEntry_eq_meanEntry _ _ _ _ _ _ (hc r)

end SageLaw

end
-- ==== Proof.KernelTile.lean ====
/-
  One tile of a layer, read entry by entry.

  Each grid point of a layer's kernel holds a tile of 5000 node rows: the rows' neighbour sums `a`, the rows'
  reciprocal neighbour counts as a column `v`, the rows' own features `x`, and the layer's two weight matrices
  `wl`, `wr` and bias row `b` whole. It scales each row of `a` by its reciprocal count, multiplies the scaled rows
  by `wl` transposed and the rows of `x` by `wr` transposed, and adds the two products and the bias; the first
  layer then clamps at zero. On the extended reals a change of float format moves nothing, so entry `(p, q)` of
  the tile is
      (Σ_k (a(p,k) · v(p,0)) · wl(q,k)  +  Σ_k x(p,k) · wr(q,k))  +  b(0,q),
  clamped below by zero in the first layer.
-/
import proofs.«156475_j10282151706738_2_alg».proof.Proof.Gen.KernelIdeal.Skeleton
import proofs.«156475_j10282151706738_2_alg».proof.Proof.LibKeepdimsColumn
import proofs.«156475_j10282151706738_2_alg».proof.Proof.SageLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx SageLaw

/-- Row coordinate of the left operand's index at output `i`: the output's row. -/
theorem tileDot_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Lane coordinate of the left operand's index: the shared coordinate. -/
theorem tileDot_lhs1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
/-- Row coordinate of the right operand's index: the shared coordinate. -/
theorem tileDot_rhs0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
/-- Column coordinate of the right operand's index: the output's column. -/
theorem tileDot_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction of a 5000×128 tile with a 128×128 matrix into a zero accumulator: entry `(p, q)` is the sum
    over the 128 shared coordinates of the products. -/
theorem tileDot_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact tileDot_lhs0 _ _
      | ⟨1, _⟩ => exact (tileDot_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (tileDot_rhs0 _ _).trans hk
      | ⟨1, _⟩ => exact tileDot_rhs1 _ _)
  rw [el, er]

/-- A row of neighbour sums scaled by the row's reciprocal count, after the change of float format: entry `(p, k)`
    is the sum's entry times the column's entry of row `p`. -/
theorem scaled_apply (a : Vec Ideal S5000x128 .f32) (v : Vec Ideal S5000x1 .f32) (p : Fin 5000) (k : Fin 128) :
    (truncf .bf16 (mulf (shapeCast S5000x128 a shapeCasts_S5000x128_S5000x128)
        (broadcastTo S5000x128 (shapeCast S5000x1 v shapeCasts_S5000x1_S5000x1) broadcasts_S5000x1_S5000x128)) bitsLt_bf16_f32
      : FVec Ideal S5000x128 .bf16) (ix2 p k) = a (ix2 p k) * v (ix2 p (0 : Fin 1)) := by
  rw [truncf_apply, mulf_apply, shapeCast_self, shapeCast_self, KeepdimsColumn.broadcastTo_a1_ab_apply]

/-- A weight matrix transposed after the change of float format: entry `(k, q)` is the matrix's entry `(q, k)`. -/
theorem weightT_apply (w : Vec Ideal S128x128 .f32) (k q : Fin 128) :
    (transpose S128x128 [1, 0] (truncf .bf16 w bitsLt_bf16_f32 : FVec Ideal S128x128 .bf16) transposes_S128x128_p1_0_S128x128
      : FVec Ideal S128x128 .bf16) (ix2 k q) = w (ix2 q k) := by
  rw [transpose_ix2_apply, truncf_apply]

/-- The bias row repeated down the tile: entry `(p, q)` is the row's entry `q`. -/
theorem biasRows_apply (b : Vec Ideal S1x128 .f32) (p : Fin 5000) (q : Fin 128) :
    (broadcastTo S5000x128 (shapeCast S1x128 b shapeCasts_S1x128_S1x128) broadcasts_S1x128_S5000x128
      : FVec Ideal S5000x128 .f32) (ix2 p q) = b (ix2 (0 : Fin 1) q) := by
  rw [broadcastTo_1b_ab_apply, shapeCast_self]

/-- THE FIRST LAYER'S TILE at entry `(p, q)`: the tile entry clamped below by zero. -/
theorem tile0_apply (a : Vec Ideal S5000x128 .f32) (v : Vec Ideal S5000x1 .f32) (x : Vec Ideal S5000x128 .f32)
    (wl wr : Vec Ideal S128x128 .f32) (b : Vec Ideal S1x128 .f32) (p : Fin 5000) (q : Fin 128) :
    k0_pay1 (F := Ideal) a v x wl wr b (ix2 p q)
      = max (tileEntry (fun k => a (ix2 p k)) (fun k => x (ix2 p k)) (fun k => wl (ix2 q k)) (fun k => wr (ix2 q k))
          (v (ix2 p (0 : Fin 1))) (b (ix2 (0 : Fin 1) q))) (Ideal.ofBits .f32 0x00000000#32) := by
  unfold k0_pay1 tileEntry
  rw [maximumf_apply, addf_apply, addf_apply, tileDot_apply, tileDot_apply, biasRows_apply, broadcast_apply]
  refine congrArg₂ max (congrArg₂ (· + ·) (congrArg₂ (· + ·) (Finset.sum_congr rfl fun k _ => ?_) (Finset.sum_congr rfl fun k _ => ?_)) rfl) rfl
  · rw [scaled_apply, weightT_apply]
  · rw [truncf_apply, weightT_apply]

/-- THE SECOND LAYER'S TILE at entry `(p, q)`: the tile entry, not clamped. -/
theorem tile1_apply (a : Vec Ideal S5000x128 .f32) (v : Vec Ideal S5000x1 .f32) (x : Vec Ideal S5000x128 .f32)
    (wl wr : Vec Ideal S128x128 .f32) (b : Vec Ideal S1x128 .f32) (p : Fin 5000) (q : Fin 128) :
    k1_pay1 (F := Ideal) a v x wl wr b (ix2 p q)
      = tileEntry (fun k => a (ix2 p k)) (fun k => x (ix2 p k)) (fun k => wl (ix2 q k)) (fun k => wr (ix2 q k))
          (v (ix2 p (0 : Fin 1))) (b (ix2 (0 : Fin 1) q)) := by
  unfold k1_pay1 tileEntry
  rw [addf_apply, addf_apply, tileDot_apply, tileDot_apply, biasRows_apply]
  refine congrArg₂ (· + ·) (congrArg₂ (· + ·) (Finset.sum_congr rfl fun k _ => ?_) (Finset.sum_congr rfl fun k _ => ?_)) rfl
  · rw [scaled_apply, weightT_apply]
  · rw [truncf_apply, shapeCast_self, weightT_apply]

end Cert.KernelIdeal.Tile

end
-- ==== Proof.LayerArray0.lean ====
/-
  The first layer's output array after its kernel.

  The kernel's grid has 20 points; point `t` reads rows `5000·t … 5000·t + 4999` of the neighbour sums, of the
  reciprocal-count column and of the node features, reads the two weight matrices and the bias row whole, and
  writes the same rows of the output. So what point `t` writes back is block `t` of one whole-array function of
  the arrays as the kernel finds them, and the 20 blocks cover the output: after the kernel the output array IS
  that function, whatever the arrays held on entry.
-/
import proofs.«156475_j10282151706738_2_alg».proof.Proof.Gen.KernelIdeal.Frame
import proofs.«156475_j10282151706738_2_alg».proof.Proof.KernelTile
import Idealize.ShloMosaic.Lib.Pipeline.Value

set_option maxRecDepth 16384

noncomputable section

namespace Cert.KernelIdeal.LayerArray0

open Cert.KernelIdeal Cert.KernelIdeal.Gen Cert.KernelIdeal.Tile
open Idealize.ShloMosaic Idealize.ShloMosaic.TcCoe Idealize.ShloMosaic.ValueIdx Idealize.SL.Sem SageLaw
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-tiled inputs move with the output, block row `t`, lane
    block 0; the weights and the bias stay at block (0, 0). -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every block row of the output is some point's. -/
theorem index_onto : ∀ q0 : Fin 20, ∃ t : Fin cfg0.N, win0_6.index t = ![q0.val, 0] :=
  (by decide +kernel : ∀ q0 : Fin 20, ∃ t : Fin grid0.N, win0_6.index t = ![q0.val, 0])

/-- WHAT POINT `t` WRITES BACK is block `t` of the layer's whole-array function of the arrays on entry. -/
theorem flushed_eq (c : Dev nD) (t : Fin cfg0.N) :
    (dat0 V c).flushed 6 t = ((cfg0.win 6).blk t).view.read (Elt Ideal)
      (layer1Array (V c main_call0_v23) (V c main_call0_v13) (V c main_arg0) (V c main_arg2) (V c main_arg4) (V c main_call0_v24)) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 5 t) (iblk0 V c 4 t) (ix2 p q)
    = layer1Array (V c main_call0_v23) (V c main_call0_v13) (V c main_arg0) (V c main_arg2) (V c main_arg4) (V c main_call0_v24)
        (((cfg0.win 6).blk t).view.emb (ix2 p q))
  refine (tile0_apply _ _ _ _ _ _ p q).trans ?_
  obtain ⟨e00, e01, e10, e11, e20, e21, e30, e31, e40, e41, e50, e51, e60, e61⟩ := index_facts t
  have hp : p.val < 5000 := p.isLt
  have hq : q.val < 128 := q.isLt
  unfold layer1Array layerRows
  refine congrArg₂ max (congr (congr (congr (congr (congr (congrArg tileEntry ?_) ?_) ?_) ?_) ?_) ?_) rfl
  · funext k
    show V c main_call0_v23 (((cfg0.win 0).blk t).view.emb (ix2 p k)) = V c main_call0_v23 _
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · funext k
    show V c main_arg0 (((cfg0.win 2).blk t).view.emb (ix2 p k)) = V c main_arg0 _
    refine congrArg _ (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 128 + 1 * k.val = k.val; omega
  · funext k
    show V c main_arg2 (((cfg0.win 3).blk t).view.emb (ix2 q k)) = V c main_arg2 _
    refine congrArg _ (funext fun a => Fin.ext ?_)
    match a with
    | ⟨0, _⟩ => show win0_3.index t (0 : Fin 2) * 128 + 1 * q.val = win0_6.index t (1 : Fin 2) * 128 + 1 * q.val; omega
    | ⟨1, _⟩ => show win0_3.index t (1 : Fin 2) * 128 + 1 * k.val = k.val; omega
  · funext k
    show V c main_arg4 (((cfg0.win 5).blk t).view.emb (ix2 q k)) = V c main_arg4 _
    refine congrArg _ (funext fun a => Fin.ext ?_)
    match a with
    | ⟨0, _⟩ => show win0_5.index t (0 : Fin 2) * 128 + 1 * q.val = win0_6.index t (1 : Fin 2) * 128 + 1 * q.val; omega
    | ⟨1, _⟩ => show win0_5.index t (1 : Fin 2) * 128 + 1 * k.val = k.val; omega
  · show V c main_call0_v13 (((cfg0.win 1).blk t).view.emb (ix2 p (0 : Fin 1))) = V c main_call0_v13 _
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 1 + 1 * 0 = 0; omega
  · show V c main_call0_v24 (((cfg0.win 4).blk t).view.emb (ix2 (0 : Fin 1) q)) = V c main_call0_v24 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega

/-- An index of the output array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_call0_v25).slice (win0_6.rect t)).set ↔ _
  rw [View.set_slice_whole, Rect.mem_set_unit]
  exact Iff.rfl

/-- The 20 blocks cover the output array: row `r` is in the block of point `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the kernel: the layer's whole-array function of the arrays on entry. -/
theorem final (c : Dev nD) :
    (dat0 V c).arrAt 6 cfg0.N = layer1Array (V c main_call0_v23) (V c main_call0_v13) (V c main_arg0) (V c main_arg2) (V c main_arg4) (V c main_call0_v24) :=
  (dat0 V c).arrAt_eq_of_cover 6 _ (fun t _ => flushed_eq V c t) cover

end Cert.KernelIdeal.LayerArray0

end
-- ==== Proof.LayerArray1.lean ====
/-
  The second layer's output array after its kernel.

  The kernel's grid has 20 points; point `t` reads rows `5000·t … 5000·t + 4999` of the neighbour sums, of the
  reciprocal-count column and of the node features, reads the two weight matrices and the bias row whole, and
  writes the same rows of the output. So what point `t` writes back is block `t` of one whole-array function of
  the arrays as the kernel finds them, and the 20 blocks cover the output: after the kernel the output array IS
  that function, whatever the arrays held on entry.
-/
import proofs.«156475_j10282151706738_2_alg».proof.Proof.Gen.KernelIdeal.Frame
import proofs.«156475_j10282151706738_2_alg».proof.Proof.KernelTile
import Idealize.ShloMosaic.Lib.Pipeline.Value

set_option maxRecDepth 16384

noncomputable section

namespace Cert.KernelIdeal.LayerArray1

open Cert.KernelIdeal Cert.KernelIdeal.Gen Cert.KernelIdeal.Tile
open Idealize.ShloMosaic Idealize.ShloMosaic.TcCoe Idealize.ShloMosaic.ValueIdx Idealize.SL.Sem SageLaw
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-tiled inputs move with the output, block row `t`, lane
    block 0; the weights and the bias stay at block (0, 0). -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every block row of the output is some point's. -/
theorem index_onto : ∀ q0 : Fin 20, ∃ t : Fin cfg1.N, win1_6.index t = ![q0.val, 0] :=
  (by decide +kernel : ∀ q0 : Fin 20, ∃ t : Fin grid1.N, win1_6.index t = ![q0.val, 0])

/-- WHAT POINT `t` WRITES BACK is block `t` of the layer's whole-array function of the arrays on entry. -/
theorem flushed_eq (c : Dev nD) (t : Fin cfg1.N) :
    (dat1 V c).flushed 6 t = ((cfg1.win 6).blk t).view.read (Elt Ideal)
      (layer2Array (V c main_call0_v35) (V c main_call0_v13) (V c main_call0_v25) (V c main_arg5) (V c main_arg7) (V c main_call0_v36)) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x128) origin, View.ld_unit_zero (S := S1x128) origin]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 5 t) (iblk1 V c 4 t) (ix2 p q)
    = layer2Array (V c main_call0_v35) (V c main_call0_v13) (V c main_call0_v25) (V c main_arg5) (V c main_arg7) (V c main_call0_v36)
        (((cfg1.win 6).blk t).view.emb (ix2 p q))
  refine (tile1_apply _ _ _ _ _ _ p q).trans ?_
  obtain ⟨e00, e01, e10, e11, e20, e21, e30, e31, e40, e41, e50, e51, e60, e61⟩ := index_facts t
  have hp : p.val < 5000 := p.isLt
  have hq : q.val < 128 := q.isLt
  unfold layer2Array layerRows
  refine (congr (congr (congr (congr (congr (congrArg tileEntry ?_) ?_) ?_) ?_) ?_) ?_)
  · funext k
    show V c main_call0_v35 (((cfg1.win 0).blk t).view.emb (ix2 p k)) = V c main_call0_v35 _
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · funext k
    show V c main_call0_v25 (((cfg1.win 2).blk t).view.emb (ix2 p k)) = V c main_call0_v25 _
    refine congrArg _ (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 128 + 1 * k.val = k.val; omega
  · funext k
    show V c main_arg5 (((cfg1.win 3).blk t).view.emb (ix2 q k)) = V c main_arg5 _
    refine congrArg _ (funext fun a => Fin.ext ?_)
    match a with
    | ⟨0, _⟩ => show win1_3.index t (0 : Fin 2) * 128 + 1 * q.val = win1_6.index t (1 : Fin 2) * 128 + 1 * q.val; omega
    | ⟨1, _⟩ => show win1_3.index t (1 : Fin 2) * 128 + 1 * k.val = k.val; omega
  · funext k
    show V c main_arg7 (((cfg1.win 5).blk t).view.emb (ix2 q k)) = V c main_arg7 _
    refine congrArg _ (funext fun a => Fin.ext ?_)
    match a with
    | ⟨0, _⟩ => show win1_5.index t (0 : Fin 2) * 128 + 1 * q.val = win1_6.index t (1 : Fin 2) * 128 + 1 * q.val; omega
    | ⟨1, _⟩ => show win1_5.index t (1 : Fin 2) * 128 + 1 * k.val = k.val; omega
  · show V c main_call0_v13 (((cfg1.win 1).blk t).view.emb (ix2 p (0 : Fin 1))) = V c main_call0_v13 _
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 1 + 1 * 0 = 0; omega
  · show V c main_call0_v36 (((cfg1.win 4).blk t).view.emb (ix2 (0 : Fin 1) q)) = V c main_call0_v36 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega

/-- An index of the output array is in point `t`'s block iff each coordinate is in the block's range. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v0).slice (win1_6.rect t)).set ↔ _
  rw [View.set_slice_whole, Rect.mem_set_unit]
  exact Iff.rfl

/-- The 20 blocks cover the output array: row `r` is in the block of point `r / 5000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the kernel: the layer's whole-array function of the arrays on entry. -/
theorem final (c : Dev nD) :
    (dat1 V c).arrAt 6 cfg1.N = layer2Array (V c main_call0_v35) (V c main_call0_v13) (V c main_call0_v25) (V c main_arg5) (V c main_arg7) (V c main_call0_v36) :=
  (dat1 V c).arrAt_eq_of_cover 6 _ (fun t _ => flushed_eq V c t) cover

end Cert.KernelIdeal.LayerArray1

end
-- ==== Proof.HostDefs.lean ====
/-
  The host-side quantities of the layered graph computation, as functions of the edge list and a feature matrix.

  From the edge list: its source row and its destination row. From the destinations: the number of edges
  arriving at each node, counted with 32-bit integers, and the reciprocal of that count clamped below by one,
  laid out as a column. From both and a feature matrix: the neighbour sums — the feature rows of the edges'
  sources (a negative source number shifted by the number of nodes) added into the rows of the edges'
  destinations, from zeros.
-/
import proofs.«156475_j10282151706738_2_alg».proof.Proof.Gen.KernelIdeal
import Idealize.ShloMosaic.PureOps.Ideal

noncomputable section

namespace Cert.KernelIdeal.HostValue

open Cert.KernelIdeal Cert.KernelIdeal.Gen
open Idealize.ShloMosaic

/-- The edges' source numbers: row 0 of the edge list. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' destination numbers: row 1 of the edge list. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The neighbour sums of a feature matrix `x`: the rows of `x` at the edges' sources (a negative number shifted by
    the number of nodes), each added into the row of the edge's destination, from zeros. -/
def neighbourSum (s d : (⟨S1600000, .i32⟩ : BufTy).Contents (Elt Ideal)) (x : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The number of edges arriving at each node, counted with 32-bit integers from zeros by ones. -/
def countI (d : (⟨S1600000, .i32⟩ : BufTy).Contents (Elt Ideal)) : (⟨S100000, .i32⟩ : BufTy).Contents (Elt Ideal) :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 d)
    (broadcastInDim S1600000 ![] bcast_S_S1600000 (constantI S_ 32 1#32))

/-- The reciprocal of the count clamped below by one, as a column. -/
def recipCol (d : (⟨S1600000, .i32⟩ : BufTy).Contents (Elt Ideal)) : (⟨S100000x1, .f32⟩ : BufTy).Contents (Elt Ideal) :=
  shapeCast S100000x1
    (Host.divf (F := Ideal) (broadcastInDim S100000 ![] bcast_S_S100000 (constant (F := Ideal) S_ .f32 0x3F800000#32))
      (maximumf (F := Ideal) (sitofp (F := Ideal) .f32 (countI d))
        (broadcastInDim S100000 ![] bcast_S_S100000 (constant (F := Ideal) S_ .f32 0x3F800000#32))))
    shapeCasts_S100000_S100000x1

end Cert.KernelIdeal.HostValue

end
-- ==== Proof.HostValue.lean ====
/-
  What the buffers hold where the two kernels start, as functions of the arguments.

  Reading the program's host operations one after another from the launch memory: on entry to the first kernel
  its six input arrays are the neighbour sums of the node features, the reciprocal-count column, the node
  features, the first layer's two weight matrices, and the first bias laid out as a row. On entry to the second
  kernel they are the neighbour sums of what the first kernel wrote, the same column, what the first kernel wrote,
  the second layer's weights, and the second bias as a row. No host operation and no kernel writes an argument.
-/
import proofs.«156475_j10282151706738_2_alg».proof.Proof.Gen.KernelIdeal.Frame
import proofs.«156475_j10282151706738_2_alg».proof.Proof.HostDefs
import Idealize.ShloMosaic.Lib.StableHlo.Run
import Idealize.ShloMosaic.PureOps.Ideal
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- Transport of contents to a buffer's own type and back is the identity. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

variable (m : (ℓ : Loc nD τ sig) → Buf (Elt Ideal) ℓ) (ρ : Dev nD → PrngReg)

/-! ## On entry to the first kernel -/

set_option maxHeartbeats 4000000 in
set_option maxRecDepth 65536 in
theorem V1_sum (c : Dev nD) : (V1 m ρ c main_call0_v23 : S100000x128.Idx → EReal)
    = neighbourSum (srcOf (m ((c : Thread nD τ).loc main_arg1))) (dstOf (m ((c : Thread nD τ).loc main_arg1))) (m ((c : Thread nD τ).loc main_arg0)) := by
  show StableHlo.after hostOps0 (W0 m ρ c) (Proc.devRef .tc main_call0_v23) = _
  after_results_simp
  try simp only [ofBuf_toBuf]
  rfl

set_option maxHeartbeats 4000000 in
set_option maxRecDepth 65536 in
theorem V1_recip (c : Dev nD) : (V1 m ρ c main_call0_v13 : S100000x1.Idx → EReal) = recipCol (dstOf (m ((c : Thread nD τ).loc main_arg1))) := by
  show StableHlo.after hostOps0 (W0 m ρ c) (Proc.devRef .tc main_call0_v13) = _
  after_results_simp
  try simp only [ofBuf_toBuf]
  rfl

theorem V1_bias (c : Dev nD) : (V1 m ρ c main_call0_v24 : S1x128.Idx → EReal) = shapeCast S1x128 (m ((c : Thread nD τ).loc main_arg3)) shapeCasts_S128_S1x128 := by
  show StableHlo.after hostOps0 (W0 m ρ c) (Proc.devRef .tc main_call0_v24) = _
  after_results_simp
  try simp only [ofBuf_toBuf]
  rfl

theorem V1_arg0 (c : Dev nD) : (V1 m ρ c main_arg0 : S100000x128.Idx → EReal) = m ((c : Thread nD τ).loc main_arg0) := by
  show StableHlo.after hostOps0 (W0 m ρ c) (Proc.devRef .tc main_arg0) = _
  after_results

theorem V1_arg2 (c : Dev nD) : (V1 m ρ c main_arg2 : S128x128.Idx → EReal) = m ((c : Thread nD τ).loc main_arg2) := by
  show StableHlo.after hostOps0 (W0 m ρ c) (Proc.devRef .tc main_arg2) = _
  after_results

theorem V1_arg4 (c : Dev nD) : (V1 m ρ c main_arg4 : S128x128.Idx → EReal) = m ((c : Thread nD τ).loc main_arg4) := by
  show StableHlo.after hostOps0 (W0 m ρ c) (Proc.devRef .tc main_arg4) = _
  after_results

/-! ## Between the kernels: what the first kernel and the first stretch leave -/

theorem W2_src (c : Dev nD) : (W2 m ρ c (Proc.devRef .tc main_call0_v1) : S1600000.Idx → BitVec 32) = srcOf (m ((c : Thread nD τ).loc main_arg1)) := by
  rw [W2_of_ne m ρ c main_call0_v1 (by decide)]
  show StableHlo.after hostOps0 (W0 m ρ c) (Proc.devRef .tc main_call0_v1) = _
  after_results_simp
  try simp only [ofBuf_toBuf]
  rfl

theorem W2_dst (c : Dev nD) : (W2 m ρ c (Proc.devRef .tc main_call0_v3) : S1600000.Idx → BitVec 32) = dstOf (m ((c : Thread nD τ).loc main_arg1)) := by
  rw [W2_of_ne m ρ c main_call0_v3 (by decide)]
  show StableHlo.after hostOps0 (W0 m ρ c) (Proc.devRef .tc main_call0_v3) = _
  after_results_simp
  try simp only [ofBuf_toBuf]
  rfl

theorem W2_arg5 (c : Dev nD) : (W2 m ρ c (Proc.devRef .tc main_arg5) : S128x128.Idx → EReal) = m ((c : Thread nD τ).loc main_arg5) := by
  rw [W2_of_ne m ρ c main_arg5 (by decide)]
  show StableHlo.after hostOps0 (W0 m ρ c) (Proc.devRef .tc main_arg5) = _
  after_results_simp

theorem W2_arg6 (c : Dev nD) : (W2 m ρ c (Proc.devRef .tc main_arg6) : S128.Idx → EReal) = m ((c : Thread nD τ).loc main_arg6) := by
  rw [W2_of_ne m ρ c main_arg6 (by decide)]
  show StableHlo.after hostOps0 (W0 m ρ c) (Proc.devRef .tc main_arg6) = _
  after_results_simp

theorem W2_arg7 (c : Dev nD) : (W2 m ρ c (Proc.devRef .tc main_arg7) : S128x128.Idx → EReal) = m ((c : Thread nD τ).loc main_arg7) := by
  rw [W2_of_ne m ρ c main_arg7 (by decide)]
  show StableHlo.after hostOps0 (W0 m ρ c) (Proc.devRef .tc main_arg7) = _
  after_results_simp

theorem W2_recip (c : Dev nD) : (W2 m ρ c (Proc.devRef .tc main_call0_v13) : S100000x1.Idx → EReal) = recipCol (dstOf (m ((c : Thread nD τ).loc main_arg1))) := by
  exact ((W2_arr m ρ c 1).trans (((dat0 (V1 m ρ) c).arrAt_in 1 rfl _).trans (A_eq0 (V1 m ρ) c 1))).trans (V1_recip m ρ c)

/-! ## On entry to the second kernel -/

set_option maxHeartbeats 4000000 in
set_option maxRecDepth 65536 in
theorem V3_sum (c : Dev nD) : (V3 m ρ c main_call0_v35 : S100000x128.Idx → EReal)
    = neighbourSum (W2 m ρ c (Proc.devRef .tc main_call0_v1)) (W2 m ρ c (Proc.devRef .tc main_call0_v3)) (W2 m ρ c (Proc.devRef .tc main_call0_v25)) := by
  show StableHlo.after hostOps1 (W2 m ρ c) (Proc.devRef .tc main_call0_v35) = _
  after_results_simp
  try simp only [ofBuf_toBuf]
  rfl

theorem V3_bias (c : Dev nD) : (V3 m ρ c main_call0_v36 : S1x128.Idx → EReal) = shapeCast S1x128 (W2 m ρ c (Proc.devRef .tc main_arg6)) shapeCasts_S128_S1x128 := by
  show StableHlo.after hostOps1 (W2 m ρ c) (Proc.devRef .tc main_call0_v36) = _
  after_results_simp
  try simp only [ofBuf_toBuf]
  rfl

theorem V3_recip (c : Dev nD) : (V3 m ρ c main_call0_v13 : S100000x1.Idx → EReal) = W2 m ρ c (Proc.devRef .tc main_call0_v13) := by
  show StableHlo.after hostOps1 (W2 m ρ c) (Proc.devRef .tc main_call0_v13) = _
  after_results_simp

theorem V3_hidden (c : Dev nD) : (V3 m ρ c main_call0_v25 : S100000x128.Idx → EReal) = W2 m ρ c (Proc.devRef .tc main_call0_v25) := by
  show StableHlo.after hostOps1 (W2 m ρ c) (Proc.devRef .tc main_call0_v25) = _
  after_results_simp

theorem V3_arg5 (c : Dev nD) : (V3 m ρ c main_arg5 : S128x128.Idx → EReal) = W2 m ρ c (Proc.devRef .tc main_arg5) := by
  show StableHlo.after hostOps1 (W2 m ρ c) (Proc.devRef .tc main_arg5) = _
  after_results_simp

theorem V3_arg7 (c : Dev nD) : (V3 m ρ c main_arg7 : S128x128.Idx → EReal) = W2 m ρ c (Proc.devRef .tc main_arg7) := by
  show StableHlo.after hostOps1 (W2 m ρ c) (Proc.devRef .tc main_arg7) = _
  after_results_simp

end Cert.KernelIdeal.HostValue

end
-- ==== Proof.RefLayers.lean ====
/-
  The reference's two layers, entry by entry.

  Reading the reference's operations at an index one after another: entry `(r, q)` of a layer is the neighbour sum's
  row `r` divided by the clamped count of node `r`, times row `q` of the first weight matrix, plus entry `q` of
  the bias, plus row `r` of the features times row `q` of the second weight matrix; the first layer is then
  clamped below by zero.
-/
import proofs.«156475_j10282151706738_2_alg».proof.Proof.Gen.ReferenceIdeal.Read
import proofs.«156475_j10282151706738_2_alg».proof.Proof.SageLaw

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx SageLaw

/-- The f32 word of one denotes one. -/
theorem one_word : Ideal.ofBits .f32 0x3F800000#32 = 1 := by
  simp [Ideal.ofBits, Ideal.ieee]
  rw [← EReal.coe_mul]
  norm_num

variable (x0 : (⟨S100000x128, .f32⟩ : BufTy).Contents (Elt Ideal)) (e : (⟨S2x1600000, .i32⟩ : BufTy).Contents (Elt Ideal))
  (w1l : (⟨S128x128, .f32⟩ : BufTy).Contents (Elt Ideal)) (b1 : (⟨S128, .f32⟩ : BufTy).Contents (Elt Ideal))
  (w1r w2l : (⟨S128x128, .f32⟩ : BufTy).Contents (Elt Ideal)) (b2 : (⟨S128, .f32⟩ : BufTy).Contents (Elt Ideal))
  (w2r : (⟨S128x128, .f32⟩ : BufTy).Contents (Elt Ideal))

/-- THE FIRST LAYER before its clamp, at entry `(r, q)`. -/
theorem layer1_apply (r : Fin 100000) (q : Fin 128) :
    val_main_v30 (F := Ideal) x0 e w1l b1 w1r (ix2 r q)
      = layerMean (val_main_v13 (F := Ideal) x0 e) (val_main_v19 (F := Ideal) e) x0 w1l w1r b1 r q := by
  unfold layerMean meanEntry
  rw [val_main_v30_apply, val_main_v27_apply, val_main_v24_apply, val_main_v29_apply, val_main_v26_apply, val_main_v25_apply]
  show _ + _ + _ = _
  refine congrArg₂ (· + ·) (congrArg₂ (· + ·) (Finset.sum_congr rfl fun k _ => ?_) ?_) (Finset.sum_congr rfl fun k _ => ?_)
  · rw [val_main_v22_apply, val_main_v21_apply, val_main_v20_apply, val_main_v23_apply]
    have e1 : lidx_main_v24 (ix2 r q) k = ix2 r k := funext fun a => Fin.ext (by match a with | ⟨0, _⟩ => rfl | ⟨1, _⟩ => rfl)
    have e2 : idx_main_v20 (idx_main_v21 (lidx_main_v24 (ix2 r q) k)) = ix1 r := funext fun a => Fin.ext (by match a with | ⟨0, _⟩ => rfl)
    have e3 : idx_main_v23 (ridx_main_v24 (ix2 r q) k) = ix2 q k := funext fun a => Fin.ext (by match a with | ⟨0, _⟩ => rfl | ⟨1, _⟩ => rfl)
    rw [e1, e2, e3]
    rfl
  · have e4 : idx_main_v25 (idx_main_v26 (ix2 r q)) = ix1 q := funext fun a => Fin.ext (by match a with | ⟨0, _⟩ => rfl)
    rw [e4]
  · rw [val_main_v28_apply]
    have e5 : lidx_main_v29 (ix2 r q) k = ix2 r k := funext fun a => Fin.ext (by match a with | ⟨0, _⟩ => rfl | ⟨1, _⟩ => rfl)
    have e6 : idx_main_v28 (ridx_main_v29 (ix2 r q) k) = ix2 q k := funext fun a => Fin.ext (by match a with | ⟨0, _⟩ => rfl | ⟨1, _⟩ => rfl)
    rw [e5, e6]

/-- THE FIRST LAYER's output at entry `(r, q)`: the clamp of the above at the zero word. -/
theorem hidden_apply (r : Fin 100000) (q : Fin 128) :
    val_main_v31 (F := Ideal) x0 e w1l b1 w1r (ix2 r q)
      = max (layerMean (val_main_v13 (F := Ideal) x0 e) (val_main_v19 (F := Ideal) e) x0 w1l w1r b1 r q) (Ideal.ofBits .f32 0x00000000#32) := by
  rw [val_main_v31_apply, val_main_call0_v0_apply, val_main_call0_cst_apply, layer1_apply]
  rfl

/-- THE SECOND LAYER at entry `(r, q)`, over the first layer's output. -/
theorem layer2_apply (r : Fin 100000) (q : Fin 128) :
    val_main_v58 (F := Ideal) x0 e w1l b1 w1r w2l b2 w2r (ix2 r q)
      = layerMean (val_main_v41 (F := Ideal) x0 e w1l b1 w1r) (val_main_v47 (F := Ideal) e) (val_main_v31 (F := Ideal) x0 e w1l b1 w1r) w2l w2r b2 r q := by
  unfold layerMean meanEntry
  rw [val_main_v58_apply, val_main_v55_apply, val_main_v52_apply, val_main_v57_apply, val_main_v54_apply, val_main_v53_apply]
  show _ + _ + _ = _
  refine congrArg₂ (· + ·) (congrArg₂ (· + ·) (Finset.sum_congr rfl fun k _ => ?_) ?_) (Finset.sum_congr rfl fun k _ => ?_)
  · rw [val_main_v50_apply, val_main_v49_apply, val_main_v48_apply, val_main_v51_apply]
    have e1 : lidx_main_v52 (ix2 r q) k = ix2 r k := funext fun a => Fin.ext (by match a with | ⟨0, _⟩ => rfl | ⟨1, _⟩ => rfl)
    have e2 : idx_main_v48 (idx_main_v49 (lidx_main_v52 (ix2 r q) k)) = ix1 r := funext fun a => Fin.ext (by match a with | ⟨0, _⟩ => rfl)
    have e3 : idx_main_v51 (ridx_main_v52 (ix2 r q) k) = ix2 q k := funext fun a => Fin.ext (by match a with | ⟨0, _⟩ => rfl | ⟨1, _⟩ => rfl)
    rw [e1, e2, e3]
    rfl
  · have e4 : idx_main_v53 (idx_main_v54 (ix2 r q)) = ix1 q := funext fun a => Fin.ext (by match a with | ⟨0, _⟩ => rfl)
    rw [e4]
  · rw [val_main_v56_apply]
    have e5 : lidx_main_v57 (ix2 r q) k = ix2 r k := funext fun a => Fin.ext (by match a with | ⟨0, _⟩ => rfl | ⟨1, _⟩ => rfl)
    have e6 : idx_main_v56 (ridx_main_v57 (ix2 r q) k) = ix2 q k := funext fun a => Fin.ext (by match a with | ⟨0, _⟩ => rfl | ⟨1, _⟩ => rfl)
    rw [e5, e6]

end Cert.ReferenceIdeal.RefValue

end
-- ==== Proof.LibCountScatter.lean ====
/-
  Counting with integers and counting with reals.

  A scatter with an additive body, into zeros, of updates that are all one, leaves at each cell the number of
  updates landing on that cell. With 32-bit integers the count is taken modulo 2^32; when there are fewer than
  2^31 updates no count can wrap, so the integer cell, read as a signed number and then as a real, is the same
  number as the sum of real ones over the updates landing on the cell — which is what the exact accumulating
  scatter of real ones into real zeros holds there.
-/
import Mathlib
import Idealize.ShloMosaic.PureOps.Ideal
import Idealize.ShloMosaic.PureOps.Ideal.Laws
import Idealize.ShloMosaic.PureOps.ShapeOps
import Idealize.ShloMosaic.PureOps.Reduce

noncomputable section
open Idealize.ShloMosaic

namespace CountScatter

variable {s si u : Shape} {α : Type} {w : Nat}

/-- A scatter's fold over any list of update positions, read at one cell `i`: only the updates whose
    result index is `i` change that cell, each by the body applied to the cell's current value and the
    update's element; the others leave it alone. -/
theorem foldl_scatter_apply (d : ScatterDims s si u) (f : α → α → α) (idx : IVec si w) (upd : u.Idx → α)
    (l : List (Fin u.numel)) (x : s.Idx → α) (i : s.Idx) :
    (l.foldl (fun r n =>
      match d.resultIdx? (u.rowMajor.symm n) idx with
      | some i => fun i' => if i' = i then f (r i) (upd (u.rowMajor.symm n)) else r i'
      | none => r) x) i
    = l.foldl (fun a n => if d.resultIdx? (u.rowMajor.symm n) idx = some i then f a (upd (u.rowMajor.symm n)) else a)
        (x i) := by
  induction l generalizing x with
  | nil => rfl
  | cons n l ih =>
    rw [List.foldl_cons, List.foldl_cons, ih]
    congr 1
    cases h : d.resultIdx? (u.rowMajor.symm n) idx with
    | none => simp
    | some k =>
      by_cases hik : i = k
      · subst hik; simp
      · have hki : ¬ (some k = some i) := fun e => hik (Option.some.inj e).symm
        simp [hik, hki]

/-- `Host.scatter` at one cell is the fold, over the update positions in row-major order, of the body
    applied at the updates that land on that cell. -/
theorem scatter_apply (d : ScatterDims s si u) (f : α → α → α) (x : s.Idx → α) (idx : IVec si w) (upd : u.Idx → α)
    (i : s.Idx) :
    Host.scatter d f x idx upd i
      = (List.finRange u.numel).foldl
          (fun a n => if d.resultIdx? (u.rowMajor.symm n) idx = some i then f a (upd (u.rowMajor.symm n)) else a)
          (x i) :=
  foldl_scatter_apply d f idx upd _ x i

/-- Adding the 32-bit word `1` once for every element of a list that satisfies `p` adds the word of the
    number of such elements (modulo `2 ^ 32`). -/
theorem foldl_add_one {ι : Type} (p : ι → Prop) [DecidablePred p] (l : List ι) (a0 : BitVec 32) :
    l.foldl (fun a n => if p n then a + 1#32 else a) a0 = a0 + BitVec.ofNat 32 (l.countP fun n => decide (p n)) := by
  induction l generalizing a0 with
  | nil => simp
  | cons n l ih =>
    rw [List.foldl_cons, ih, List.countP_cons]
    by_cases hp : p n
    · simp only [hp, if_true, decide_true]
      rw [BitVec.ofNat_add, BitVec.add_assoc, BitVec.add_comm (BitVec.ofNat 32 _) (BitVec.ofNat 32 1)]
    · simp [hp]

/-- The number of row-major positions of `u` whose index satisfies `p` is the number of indices of `u`
    that satisfy `p`: row-major order lists every index once. -/
theorem countP_finRange_rowMajor (p : u.Idx → Prop) [DecidablePred p] :
    (List.finRange u.numel).countP (fun n => decide (p (u.rowMajor.symm n))) = (Finset.univ.filter p).card := by
  have hnd : ((List.finRange u.numel).filter fun n => decide (p (u.rowMajor.symm n))).Nodup :=
    (List.nodup_finRange _).filter _
  rw [List.countP_eq_length_filter, ← List.toFinset_card_of_nodup hnd, List.toFinset_filter, List.toFinset_finRange]
  refine Finset.card_equiv u.rowMajor.symm fun n => ?_
  simp

/-- A natural number below `2 ^ 31` is the signed value of its 32-bit word. -/
theorem toInt_ofNat_of_lt {k : Nat} (hk : k < 2 ^ 31) : (BitVec.ofNat 32 k).toInt = (k : Int) := by
  rw [BitVec.toInt_eq_toNat_cond, BitVec.toNat_ofNat]
  omega

/-- A sum of real ones over a finite set is the set's size. -/
theorem sum_one_ereal {ι : Type} (S : Finset ι) : ∑ _j ∈ S, (1 : EReal) = ((S.card : ℝ) : EReal) := by
  rw [Finset.sum_const, ← EReal.coe_one, ← EReal.coe_nsmul, nsmul_eq_mul, mul_one]

/-- Counting with 32-bit integers the updates that land on a cell, from zero, and reading the count as a
    real number gives what summing real ones over those updates gives, from zero, when the number of
    updates is below `2 ^ 31`: the count never wraps around. -/
theorem toInt_scatter_addi_ones (d : ScatterDims s si u) (idx : IVec si w)
    (x : s.Idx → BitVec 32) (upd : u.Idx → BitVec 32) (x' : s.Idx → EReal) (upd' : u.Idx → EReal)
    (hx : ∀ i, x i = 0#32) (hu : ∀ j, upd j = 1#32) (hx' : ∀ i, x' i = 0) (hu' : ∀ j, upd' j = 1)
    (hN : u.numel < 2 ^ 31) (i : s.Idx) :
    (((Host.scatter d IntOp.addi x idx upd i).toInt : ℝ) : EReal) = Ideal.hostScatterAdd d x' idx upd' i := by
  classical
  have hfold : Host.scatter d IntOp.addi x idx upd i
      = BitVec.ofNat 32 ((List.finRange u.numel).countP
          fun n => decide (d.resultIdx? (u.rowMajor.symm n) idx = some i)) := by
    rw [scatter_apply]
    simp only [hu, hx, IntOp.addi_eq_add]
    rw [foldl_add_one (fun n => d.resultIdx? (u.rowMajor.symm n) idx = some i), BitVec.zero_add]
  have hle : (List.finRange u.numel).countP
      (fun n => decide (d.resultIdx? (u.rowMajor.symm n) idx = some i)) < 2 ^ 31 :=
    lt_of_le_of_lt (List.countP_le_length.trans (le_of_eq (List.length_finRange))) hN
  rw [hfold, toInt_ofNat_of_lt hle, countP_finRange_rowMajor (fun j => d.resultIdx? j idx = some i)]
  unfold Ideal.hostScatterAdd
  simp only [hx', hu', zero_add]
  rw [Int.cast_natCast]
  rw [← sum_one_ereal]

end CountScatter
-- ==== Proof.Bridge.lean ====
/-
  The two programs compute one function.

  With the same edge list and feature matrix the two programs hold the same neighbour sums (they apply the same
  gather and the same accumulating scatter). Their counts agree too: one counts the edges arriving at a node with
  32-bit integers and reads the count as a real, the other adds real ones; with 1600000 edges no integer count
  wraps, so both are the number of arriving edges. Clamped below by one the count is not zero, so scaling a
  neighbour sum by its reciprocal is dividing by it, and regrouping the layer's three summands changes nothing:
  the first layer's outputs agree entry by entry, hence as arrays; the second layer, applied to equal arrays,
  agrees in the same way.
-/
import proofs.«156475_j10282151706738_2_alg».proof.Proof.HostDefs
import proofs.«156475_j10282151706738_2_alg».proof.Proof.RefLayers
import proofs.«156475_j10282151706738_2_alg».proof.Proof.LibCountScatter
import proofs.«156475_j10282151706738_2_alg».proof.Proof.LibKeepdimsColumn
import Idealize.ShloMosaic.Lib.ValueLayout
import Idealize.ShloMosaic.Lib.Pipeline.Value

set_option maxRecDepth 16384

noncomputable section

namespace Cert.Bridge

open Idealize.ShloMosaic Idealize.ShloMosaic.ValueIdx SageLaw
open Cert.KernelIdeal.HostValue
open Cert.ReferenceIdeal.Read Cert.ReferenceIdeal.RefValue

variable (x0 : (⟨Cert.ReferenceIdeal.S100000x128, .f32⟩ : BufTy).Contents (Elt Ideal)) (e : (⟨Cert.ReferenceIdeal.S2x1600000, .i32⟩ : BufTy).Contents (Elt Ideal))
  (w1l : (⟨Cert.ReferenceIdeal.S128x128, .f32⟩ : BufTy).Contents (Elt Ideal)) (b1 : (⟨Cert.ReferenceIdeal.S128, .f32⟩ : BufTy).Contents (Elt Ideal))
  (w1r w2l : (⟨Cert.ReferenceIdeal.S128x128, .f32⟩ : BufTy).Contents (Elt Ideal)) (b2 : (⟨Cert.ReferenceIdeal.S128, .f32⟩ : BufTy).Contents (Elt Ideal))
  (w2r : (⟨Cert.ReferenceIdeal.S128x128, .f32⟩ : BufTy).Contents (Elt Ideal))

/-! ## The two programs' dimension records are the same records -/

theorem scatterRows_eq : Cert.KernelIdeal.scatter_S100000x128_S1600000x1_S1600000x128_1_0_0_1 = Cert.ReferenceIdeal.scatter_S100000x128_S1600000x1_S1600000x128_1_0_0_1 := rfl
theorem gatherRows_eq : Cert.KernelIdeal.gather_S100000x128_S1600000x1_S1600000x128_1_0_n_n_0_1_1128 = Cert.ReferenceIdeal.gather_S100000x128_S1600000x1_S1600000x128_1_0_n_n_0_1_1128 := rfl
theorem scatterCells_eq : Cert.KernelIdeal.scatter_S100000_S1600000x1_S1600000_n_0_0_1 = Cert.ReferenceIdeal.scatter_S100000_S1600000x1_S1600000_n_0_0_1 := rfl

/-! ## The neighbour sums are the same terms -/

theorem sum1_eq : val_main_v13 (F := Ideal) x0 e = neighbourSum (srcOf e) (dstOf e) x0 := by
  unfold val_main_v13 val_main_v12 val_main_v11 val_main_v10 val_main_v9 val_main_v8 val_main_v7 val_main_v6 val_main_v5 val_main_v4
    val_main_v3 val_main_v2 val_main_v1 val_main_v0 val_main_c val_main_c_0 val_main_cst neighbourSum srcOf dstOf
  rw [scatterRows_eq, gatherRows_eq]

theorem sum2_eq : val_main_v41 (F := Ideal) x0 e w1l b1 w1r
    = neighbourSum (srcOf e) (dstOf e) (val_main_v31 (F := Ideal) x0 e w1l b1 w1r) := by
  unfold val_main_v41 val_main_v40 val_main_v39 val_main_v38 val_main_v37 val_main_v36 val_main_v35 val_main_v34 val_main_v33 val_main_v32
    val_main_v3 val_main_v2 val_main_v1 val_main_v0 val_main_c_4 val_main_c_5 val_main_cst_6 neighbourSum srcOf dstOf
  rw [scatterRows_eq, gatherRows_eq]

/-- The second layer's clamped count is the first layer's: the same operations of the same destinations. -/
theorem count2_eq : val_main_v47 (F := Ideal) e = val_main_v19 (F := Ideal) e := by
  unfold val_main_v47 val_main_v46 val_main_v45 val_main_v44 val_main_v43 val_main_v42 val_main_cst_9 val_main_cst_8 val_main_cst_7
    val_main_v19 val_main_v18 val_main_v17 val_main_v16 val_main_v15 val_main_v14 val_main_cst_3 val_main_cst_2 val_main_cst_1
  rfl

/-! ## The counts agree -/

/-- The f32 word of one, repeated over the nodes, reads one everywhere. -/
theorem ones_apply (h : Cert.KernelIdeal.S_.BroadcastsInDim Cert.KernelIdeal.S100000 ![]) (i : Cert.KernelIdeal.S100000.Idx) :
    broadcastInDim Cert.KernelIdeal.S100000 ![] h (constant (F := Ideal) Cert.KernelIdeal.S_ .f32 0x3F800000#32) i = 1 :=
  (broadcastInDim_apply _ h _ i (fun a => a.elim0) (fun a => a.elim0)).trans one_word

/-- There are fewer than 2^31 edges. -/
theorem edges_lt : Cert.KernelIdeal.S1600000.numel < 2 ^ 31 := by
  show (⟨1, ![1600000]⟩ : Shape).numel < 2 ^ 31
  rw [Shape.numel_rank1]
  show 1600000 < 2 ^ 31
  norm_num

/-- The reference's real count is the exact accumulating scatter of ones into zeros at the destinations. -/
theorem refCount_eq :
    val_main_v17 (F := Ideal) e
      = Ideal.hostScatterAdd Cert.ReferenceIdeal.scatter_S100000_S1600000x1_S1600000_n_0_0_1 (val_main_v15 (F := Ideal)) (val_main_v16 (F := Ideal) e) (val_main_v14 (F := Ideal)) := by
  unfold val_main_v17 Host.scatterAdd
  exact Ideal.hostScatterAdd_def _ _ _ _ _

/-- The destinations as a column are the same term in both programs. -/
theorem dstCol_eq (h : Cert.KernelIdeal.S1600000.BroadcastsInDim Cert.KernelIdeal.S1600000x1 ![0]) :
    broadcastInDim Cert.KernelIdeal.S1600000x1 ![0] h (dstOf e) = val_main_v16 (F := Ideal) e := by
  unfold val_main_v16 val_main_v3 val_main_v2 dstOf
  rfl

/-- The integer count of the edges arriving at a node, read as a real, is the reference's real count. -/
theorem count_eq (i : Cert.KernelIdeal.S100000.Idx) :
    (((countI (dstOf e) i).toInt : ℝ) : EReal) = val_main_v17 (F := Ideal) e i := by
  rw [refCount_eq]
  unfold countI
  rw [dstCol_eq, scatterCells_eq]
  refine CountScatter.toInt_scatter_addi_ones _ _ _ _ (val_main_v15 (F := Ideal)) (val_main_v14 (F := Ideal)) ?_ ?_ ?_ ?_ edges_lt i
  · intro i
    exact (broadcastInDim_apply _ _ _ i (fun a => a.elim0) (fun a => a.elim0))
  · intro j
    exact (broadcastInDim_apply _ _ _ j (fun a => a.elim0) (fun a => a.elim0))
  · intro i
    rw [val_main_v15_apply, val_main_cst_2_apply]
    exact Ideal.ofBits_zero_f32
  · intro j
    rw [val_main_v14_apply, val_main_cst_1_apply]
    exact one_word

/-! ## The reciprocal-count column against the clamped count -/

/-- The reciprocal-count column at row `r` is the reciprocal of the reference's count clamped below by one. -/
theorem recip_apply (r : Fin 100000) :
    recipCol (dstOf e) (ix2 r (0 : Fin 1)) = Ideal.div 1 (val_main_v19 (F := Ideal) e (ix1 r)) := by
  unfold recipCol
  rw [KeepdimsColumn.shapeCast_a_a1_apply, val_main_v19_apply, val_main_v18_apply, val_main_cst_3_apply]
  exact congrArg₂ Ideal.div (ones_apply _ _) (congrArg₂ max (count_eq e (ix1 r)) ((ones_apply _ _).trans one_word.symm))

/-- The reference's clamped count is never zero. -/
theorem count_ne (r : Fin 100000) : val_main_v19 (F := Ideal) e (ix1 r) ≠ 0 := by
  rw [val_main_v19_apply, val_main_v18_apply, val_main_cst_3_apply]
  show max _ (Ideal.ofBits .f32 0x3F800000#32) ≠ 0
  rw [one_word]
  exact max_one_ne_zero _

/-! ## The layers agree -/

/-- THE FIRST LAYER: from the same neighbour sums, a column of reciprocal counts and the bias as a row, the tiled
    arrangement's array is the reference's first-layer output. -/
theorem hidden_eq (a : Mat 100000 128) (v : Mat 100000 1) (bRow : Mat 1 128)
    (ha : a = val_main_v13 (F := Ideal) x0 e)
    (hv : ∀ r : Fin 100000, v (ix2 r (0 : Fin 1)) = Ideal.div 1 (val_main_v19 (F := Ideal) e (ix1 r)))
    (hb : ∀ q : Fin 128, bRow (ix2 (0 : Fin 1) q) = b1 (ix1 q)) :
    layer1Array a v x0 w1l w1r bRow = val_main_v31 (F := Ideal) x0 e w1l b1 w1r := by
  subst ha
  funext i
  obtain ⟨r, q, rfl⟩ : ∃ (r : Fin 100000) (q : Fin 128), i = ix2 r q := ⟨i 0, i 1, eq_ix2 i⟩
  rw [hidden_apply]
  unfold layer1Array
  exact congrArg₂ max (layerRows_eq_layerMean _ v _ x0 w1l w1r bRow b1 hv (count_ne e) hb r q) rfl

/-- THE SECOND LAYER: the same, over the first layer's output, not clamped. -/
theorem out_eq (a : Mat 100000 128) (v : Mat 100000 1) (h : Mat 100000 128) (bRow : Mat 1 128)
    (hh : h = val_main_v31 (F := Ideal) x0 e w1l b1 w1r)
    (ha : a = val_main_v41 (F := Ideal) x0 e w1l b1 w1r)
    (hv : ∀ r : Fin 100000, v (ix2 r (0 : Fin 1)) = Ideal.div 1 (val_main_v19 (F := Ideal) e (ix1 r)))
    (hb : ∀ q : Fin 128, bRow (ix2 (0 : Fin 1) q) = b2 (ix1 q)) :
    layer2Array a v h w2l w2r bRow = val_main_v58 (F := Ideal) x0 e w1l b1 w1r w2l b2 w2r := by
  subst hh ha
  funext i
  obtain ⟨r, q, rfl⟩ : ∃ (r : Fin 100000) (q : Fin 128), i = ix2 r q := ⟨i 0, i 1, eq_ix2 i⟩
  rw [layer2_apply, count2_eq]
  unfold layer2Array
  exact layerRows_eq_layerMean _ v _ _ w2l w2r bRow b2 hv (count_ne e) hb r q

end Cert.Bridge

end
-- ==== Proof.Assembly.lean ====
/-
  The idealized kernel program's result is the reference's function of the arguments.

  The result's buffer ends at what the second kernel leaves of its output array: the second layer's array of the
  second kernel's inputs. Those inputs are the neighbour sums of the first kernel's output, the reciprocal-count
  column, that output, the second layer's weights and the second bias as a row; the first kernel's output is in
  turn the first layer's array of the neighbour sums of the node features, the same column, the node features,
  the first layer's weights and the first bias as a row. Layer by layer these are the reference's stages.
-/
import proofs.«156475_j10282151706738_2_alg».proof.Proof.KernelRun
import proofs.«156475_j10282151706738_2_alg».proof.Proof.LayerArray0
import proofs.«156475_j10282151706738_2_alg».proof.Proof.LayerArray1
import proofs.«156475_j10282151706738_2_alg».proof.Proof.HostValue
import proofs.«156475_j10282151706738_2_alg».proof.Proof.Bridge
import Idealize.ShloMosaic.Lib.ValueLayout

set_option maxRecDepth 16384

noncomputable section

namespace Cert.KernelIdeal.Result

open Cert.KernelIdeal Cert.KernelIdeal.Gen Cert.KernelIdeal.HostValue
open Idealize.ShloMosaic Idealize.ShloMosaic.TcCoe Idealize.ShloMosaic.ValueIdx Idealize.SL.Sem SageLaw
open Cert.ReferenceIdeal.Read (val_main_v31 val_main_v58)

variable (m : (ℓ : Loc nD τ sig) → Buf (Elt Ideal) ℓ) (ρ : Dev nD → PrngReg)

/-- A bias vector laid out as a row reads, at `(0, q)`, the vector at `q`. -/
theorem biasRow_apply (b : S128.Idx → EReal) (q : Fin 128) :
    shapeCast S1x128 b shapeCasts_S128_S1x128 (ix2 (0 : Fin 1) q) = b (ix1 q) :=
  shapeCast_a_1a_apply b _ 0 q

/-- What the first kernel leaves of its output array is the reference's first-layer output. -/
theorem hidden (c : Dev nD) : (W2 m ρ c (Proc.devRef .tc main_call0_v25) : S100000x128.Idx → EReal)
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 6).trans ((LayerArray0.final (V1 m ρ) c).trans ?_)
  rw [V1_sum, V1_recip, V1_arg0, V1_arg2, V1_arg4, V1_bias]
  exact Cert.Bridge.hidden_eq _ _ _ _ _ _ _ _ (Cert.Bridge.sum1_eq _ _).symm (Cert.Bridge.recip_apply _) (biasRow_apply _)

/-- THE RESULT: the result's buffer at the last boundary is the reference's composed function of the arguments. -/
theorem result (c : Dev nD) : (W4 m ρ c (Proc.devRef .tc main_v0) : S100000x128.Idx → EReal)
    = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (RunValue.W4_result m ρ c).trans ((LayerArray1.final (V3 m ρ) c).trans ?_)
  rw [V3_sum, V3_recip, V3_hidden, V3_arg5, V3_arg7, V3_bias, W2_src, W2_dst, W2_recip, W2_arg5, W2_arg6, W2_arg7, hidden]
  exact Cert.Bridge.out_eq _ _ _ _ _ _ _ _ _ _ _ _ rfl (Cert.Bridge.sum2_eq _ _ _ _ _).symm (Cert.Bridge.recip_apply _) (biasRow_apply _)

end Cert.KernelIdeal.Result

end
-- ==== Proof.lean ====
/-
  The certificate of a two-layer mean-aggregation graph layer pair (neighbour mean times a weight matrix, plus a
  bias, plus the node's own features times a second weight matrix; a clamp at zero between the layers), computed
  by two row-tiled kernels around host-side gathers and accumulating scatters, against the plain array program.

  Frames: the two kernel programs' are the generated frame certificates; the reference's is its generated run with
  the result dropped. The idealization rewrote nothing, so `preserves` is trivial. On the extended reals both
  programs end with the result array at ONE function of the arguments: the kernel program's value is read off its
  run (the result named, each kernel's output array as a whole-array function of its inputs, the host stretches read
  back to the arguments), the reference's off its generated run, and the two are joined by three facts — the
  neighbour sums are the same operations; the 32-bit count of arriving edges cannot wrap below 2^31 edges, so it is
  the real count; and scaling by the reciprocal of a nonzero count is dividing by it, sums regrouped freely.
  Nothing here needs the inputs to be finite.
-/
import proofs.«156475_j10282151706738_2_alg».proof.Defs
import proofs.«156475_j10282151706738_2_alg».proof.Proof.Gen.Kernel
import proofs.«156475_j10282151706738_2_alg».proof.Proof.Gen.Kernel.Skeleton
import proofs.«156475_j10282151706738_2_alg».proof.Proof.Gen.Kernel.Launch
import proofs.«156475_j10282151706738_2_alg».proof.Proof.Gen.Kernel.Points
import proofs.«156475_j10282151706738_2_alg».proof.Proof.Gen.Kernel.Frame
import proofs.«156475_j10282151706738_2_alg».proof.Proof.Gen.KernelIdeal
import proofs.«156475_j10282151706738_2_alg».proof.Proof.Gen.KernelIdeal.Skeleton
import proofs.«156475_j10282151706738_2_alg».proof.Proof.Gen.KernelIdeal.Launch
import proofs.«156475_j10282151706738_2_alg».proof.Proof.Gen.KernelIdeal.Points
import proofs.«156475_j10282151706738_2_alg».proof.Proof.Gen.KernelIdeal.Frame
import proofs.«156475_j10282151706738_2_alg».proof.Proof.Gen.ReferenceIdeal
import proofs.«156475_j10282151706738_2_alg».proof.Proof.Gen.Pre_finite_inputs
import proofs.«156475_j10282151706738_2_alg».proof.Proof.Gen.ReferenceIdeal.Run
import proofs.«156475_j10282151706738_2_alg».proof.Proof.Gen.ReferenceIdeal.Read
import proofs.«156475_j10282151706738_2_alg».proof.Proof.Assembly
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the result at the reference's
    composed function of the arguments. -/
theorem algebraic : Cert.algebraic_KernelIdeal_ReferenceIdeal := by
  intro m ρ m' ρ' _ hagree
  refine ⟨fun c => Cert.ReferenceIdeal.Read.val_main_v58 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v58_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
